-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S10x1 : Shape := ⟨2, ![10, 1]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S10x1 : S_.BroadcastsInDim S10x1 (![] : Fin 0 → Fin S10x1.rank)
  reducesTo_S10x1_S_d0_1 : S10x1.ReducesTo [0, 1] S_

variable [Facts]

def fn {F : FTy → Type} [FloatOps F] (main_arg0 : FVec F S16x512x1024 .f32) (main_arg1 : FVec F S16x512x1024 .f32) (main_arg2 : FVec F S10x1 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S16x512x1024 .f32 := Host.absf main_arg1
  let main_cst_0 : FVec F S_ .f32 := constant S_ .f32 0x7F800000#32
  let main_v5 : FVec F S16x512x1024 .f32 := broadcastInDim S16x512x1024 ![] bcast_S_S16x512x1024 main_cst_0
  let main_v6 : IVec S16x512x1024 1 := cmpf .olt main_v4 main_v5
  let main_c_1 : IVec S_ 1 := constantI S_ 1 1#1
  let main_v7 : IVec S_ 1 := (fun x v => Host.reduce IntOp.andi x v reducesTo_S16x512x1024_S_d0_1_2 h_S_) main_v6 main_c_1
  let main_v8 : IVec S_ 1 := andi main_v3 main_v7
  let main_v9 : FVec F S10x1 .f32 := Host.absf main_arg2
  let main_cst_2 : FVec F S_ .f32 := constant S_ .f32 0x7F800000#32
  let main_v10 : FVec F S10x1 .f32 := broadcastInDim S10x1 ![] bcast_S_S10x1 main_cst_2
  let main_v11 : IVec S10x1 1 := cmpf .olt main_v9 main_v10
  let main_c_3 : IVec S_ 1 := constantI S_ 1 1#1
  let main_v12 : IVec S_ 1 := (fun x v => Host.reduce IntOp.andi x v reducesTo_S10x1_S_d0_1 h_S_) main_v11 main_c_3
  let main_v13 : IVec S_ 1 := andi main_v8 main_v12
  main_v13
-- ==== Kernel.lean ====
abbrev S16x512x1024 : Shape := ⟨3, ![16, 512, 1024]⟩
abbrev S10x1 : Shape := ⟨2, ![10, 1]⟩
abbrev S1x10 : Shape := ⟨2, ![1, 10]⟩
abbrev S16x512x10 : Shape := ⟨3, ![16, 512, 10]⟩
abbrev S1x256x1024 : Shape := ⟨3, ![1, 256, 1024]⟩
abbrev S1x512x1024 : Shape := ⟨3, ![1, 512, 1024]⟩
abbrev S1x256x10 : Shape := ⟨3, ![1, 256, 10]⟩
abbrev S256x1024 : Shape := ⟨2, ![256, 1024]⟩
abbrev S512x1024 : Shape := ⟨2, ![512, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1x512 : Shape := ⟨2, ![1, 512]⟩
abbrev S256x10 : Shape := ⟨2, ![256, 10]⟩

abbrev nBuf : Space → Nat
  | .hbm => 5
  | .vmem => 7
  | .smem => 0
  | _ => 0

abbrev bufTy : (tb : Table) → Fin (tcTables nBuf tb) → BufTy
  | .hbm, ⟨0, _⟩ => ⟨S16x512x1024, .f32⟩
  | .hbm, ⟨1, _⟩ => ⟨S16x512x1024, .f32⟩
  | .hbm, ⟨2, _⟩ => ⟨S10x1, .f32⟩
  | .hbm, ⟨3, _⟩ => ⟨S1x10, .f32⟩
  | .hbm, ⟨4, _⟩ => ⟨S16x512x10, .f32⟩
  | .local _ .vmem, ⟨0, _⟩ => ⟨S1x256x1024, .f32⟩
  | .local _ .vmem, ⟨1, _⟩ => ⟨S1x256x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x10, .f32⟩
  | .local _ .vmem, ⟨5, _⟩ => ⟨S1x256x10, .f32⟩
  | .local _ .vmem, ⟨6, _⟩ => ⟨S1x256x10, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S10x1_S1x10 : S10x1.ShapeCasts S1x10
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  transposes_S512x1024_p1_0_S1024x512 : S512x1024.Transposes [1, 0] S1024x512
  reduces_S256x1024_S256 : S256x1024.Reduces [1] S256
  shapeCasts_S256_S256x1 : S256.ShapeCasts S256x1
  reduces_S512x1024_S512 : S512x1024.Reduces [1] S512
  shapeCasts_S512_S512x1 : S512.ShapeCasts S512x1
  transposes_S512x1_p1_0_S1x512 : S512x1.Transposes [1, 0] S1x512
  broadcasts_S256x1_S256x512 : S256x1.Broadcasts S256x512
  broadcasts_S1x512_S256x512 : S1x512.Broadcasts S256x512
  reduces_S256x512_S256 : S256x512.Reduces [1] S256
  broadcasts_S256x1_S256x1024 : S256x1.Broadcasts S256x1024
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S256x1_S256x10 : S256x1.Broadcasts S256x10
  broadcasts_S1x10_S256x10 : S1x10.Broadcasts S256x10
  inb_S1x256x10_S1x256x10_0_0_0 : ∀ a, (![0, 0, 0] : Fin 3 → Nat) a + S1x256x10.size a ≤ S1x256x10.size a
  h_S1x256x10 : 0 < S1x256x10.numel
  shapeCasts_S1x256x10_S256x10 : S1x256x10.ShapeCasts S256x10
  shapeCasts_S256x10_S1x256x10 : S256x10.ShapeCasts S1x256x10
  dot_S256x1024_S1024x512_S256x512_1_0_0_1_n_n_wf : DotDims.WF S256x1024 S1024x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x512x1024.size a
  hwx0_0 : ∀ i : grid0.Coords, EltTy.bits .f32 = 32 ∨ (Rect.block (s := S16x512x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x512x1024.size a
  hwx0_1 : ∀ i : grid0.Coords, EltTy.bits .f32 = 32 ∨ (Rect.block (s := S16x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x10.size a ≤ S16x512x10.size a
  hwx0_3 : ∀ i : grid0.Coords, EltTy.bits .f32 = 32 ∨ (Rect.block (s := S16x512x10) S1x256x10.size (cc0_transform_3 i) (hinb0_3 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S10x1 : Shape := ⟨2, ![10, 1]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S16x1x512 : Shape := ⟨3, ![16, 1, 512]⟩
abbrev S16x512x1x1024 : Shape := ⟨4, ![16, 512, 1, 1024]⟩
abbrev S1x1x10x1 : Shape := ⟨4, ![1, 1, 10, 1]⟩
abbrev S16x512x10x1024 : Shape := ⟨4, ![16, 512, 10, 1024]⟩
abbrev S16x512x10 : Shape := ⟨3, ![16, 512, 10]⟩

abbrev nBuf : Space → Nat
  | .hbm => 56
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S16x512x1024, .f32⟩
  | .hbm, ⟨2, _⟩ => ⟨S10x1, .f32⟩
  | .hbm, ⟨3, _⟩ => ⟨S16x512x512, .f32⟩
  | .hbm, ⟨4, _⟩ => ⟨S16x512x1024, .f32⟩
  | .hbm, ⟨5, _⟩ => ⟨S_, .f32⟩
  | .hbm, ⟨6, _⟩ => ⟨S16x512, .f32⟩
  | .hbm, ⟨7, _⟩ => ⟨S16x512, .f32⟩
  | .hbm, ⟨8, _⟩ => ⟨S16x512x1024, .f32⟩
  | .hbm, ⟨9, _⟩ => ⟨S_, .f32⟩
  | .hbm, ⟨10, _⟩ => ⟨S16x512, .f32⟩
  | .hbm, ⟨11, _⟩ => ⟨S16x512, .f32⟩
  | .hbm, ⟨12, _⟩ => ⟨S16x512x1, .f32⟩
  | .hbm, ⟨13, _⟩ => ⟨S16x1x512, .f32⟩
  | .hbm, ⟨14, _⟩ => ⟨S16x512x512, .f32⟩
  | .hbm, ⟨15, _⟩ => ⟨S16x512x512, .f32⟩
  | .hbm, ⟨16, _⟩ => ⟨S16x512x512, .f32⟩
  | .hbm, ⟨17, _⟩ => ⟨S_, .f32⟩
  | .hbm, ⟨18, _⟩ => ⟨S16x512x512, .f32⟩
  | .hbm, ⟨19, _⟩ => ⟨S16x512x512, .f32⟩
  | .hbm, ⟨20, _⟩ => ⟨S16x512x512, .f32⟩
  | .hbm, ⟨21, _⟩ => ⟨S16x512x1024, .f32⟩
  | .hbm, ⟨22, _⟩ => ⟨S_, .f32⟩
  | .hbm, ⟨23, _⟩ => ⟨S16x512, .f32⟩
  | .hbm, ⟨24, _⟩ => ⟨S16x512x1, .f32⟩
  | .hbm, ⟨25, _⟩ => ⟨S_, .f32⟩
  | .hbm, ⟨26, _⟩ => ⟨S16x512x1, .f32⟩
  | .hbm, ⟨27, _⟩ => ⟨S16x512x1, .f32⟩
  | .hbm, ⟨28, _⟩ => ⟨S16x512x1024, .f32⟩
  | .hbm, ⟨29, _⟩ => ⟨S16x512x1024, .f32⟩
  | .hbm, ⟨30, _⟩ => ⟨S16x512x1x1024, .f32⟩
  | .hbm, ⟨31, _⟩ => ⟨S1x1x10x1, .f32⟩
  | .hbm, ⟨32, _⟩ => ⟨S16x512x10x1024, .f32⟩
  | .hbm, ⟨33, _⟩ => ⟨S16x512x10x1024, .f32⟩
  | .hbm, ⟨34, _⟩ => ⟨S16x512x10x1024, .f32⟩
  | .hbm, ⟨35, _⟩ => ⟨S16x512x1x1024, .f32⟩
  | .hbm, ⟨36, _⟩ => ⟨S1x1x10x1, .f32⟩
  | .hbm, ⟨37, _⟩ => ⟨S16x512x10x1024, .f32⟩
  | .hbm, ⟨38, _⟩ => ⟨S16x512x10x1024, .f32⟩
  | .hbm, ⟨39, _⟩ => ⟨S16x512x10x1024, .f32⟩
  | .hbm, ⟨40, _⟩ => ⟨S16x512x10x1024, .f32⟩
  | .hbm, ⟨41, _⟩ => ⟨S_, .f32⟩
  | .hbm, ⟨42, _⟩ => ⟨S16x512x10, .f32⟩
  | .hbm, ⟨43, _⟩ => ⟨S16x512x10x1024, .f32⟩
  | .hbm, ⟨44, _⟩ => ⟨S_, .f32⟩
  | .hbm, ⟨45, _⟩ => ⟨S16x512x10, .f32⟩
  | .hbm, ⟨46, _⟩ => ⟨S16x512x10, .f32⟩
  | .hbm, ⟨47, _⟩ => ⟨S16x512x10x1024, .f32⟩
  | .hbm, ⟨48, _⟩ => ⟨S_, .f32⟩
  | .hbm, ⟨49, _⟩ => ⟨S16x512x10, .f32⟩
  | .hbm, ⟨50, _⟩ => ⟨S16x512x10, .f32⟩
  | .hbm, ⟨51, _⟩ => ⟨S16x512x10, .f32⟩
  | .hbm, ⟨52, _⟩ => ⟨S_, .f32⟩
  | .hbm, ⟨53, _⟩ => ⟨S16x512x10, .f32⟩
  | .hbm, ⟨54, _⟩ => ⟨S16x512x10, .f32⟩
  | .hbm, ⟨55, _⟩ => ⟨S16x512x10, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_v30 : Ref sig .tc := ⟨.hbm, 46, rfl⟩
abbrev main_call3_v0 : Ref sig .tc := ⟨.hbm, 47, rfl⟩
abbrev main_call3_cst : Ref sig .tc := ⟨.hbm, 48, rfl⟩
abbrev main_call3_v1 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  reducesTo_S16x512x1024_S16x512_d2 : S16x512x1024.ReducesTo [2] S16x512
  h_S_ : 0 < S_.numel
  bcast_S16x512_S16x512x1_0_1 : S16x512.BroadcastsInDim S16x512x1 (![0, 1] : Fin 2 → Fin S16x512x1.rank)
  bcast_S16x512_S16x1x512_0_2 : S16x512.BroadcastsInDim S16x1x512 (![0, 2] : Fin 2 → Fin S16x1x512.rank)
  bcast_S16x512x1_S16x512x512_0_1_2 : S16x512x1.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  bcast_S_S16x512x512 : S_.BroadcastsInDim S16x512x512 (![] : Fin 0 → Fin S16x512x512.rank)
  reducesTo_S16x512x512_S16x512_d2 : S16x512x512.ReducesTo [2] S16x512
  bcast_S_S16x512x1 : S_.BroadcastsInDim S16x512x1 (![] : Fin 0 → Fin S16x512x1.rank)
  bcast_S16x512x1_S16x512x1024_0_1_2 : S16x512x1.BroadcastsInDim S16x512x1024 (![0, 1, 2] : Fin 3 → Fin S16x512x1024.rank)
  bcast_S16x512x1024_S16x512x1x1024_0_1_3 : S16x512x1024.BroadcastsInDim S16x512x1x1024 (![0, 1, 3] : Fin 3 → Fin S16x512x1x1024.rank)
  bcast_S10x1_S1x1x10x1_2_3 : S10x1.BroadcastsInDim S1x1x10x1 (![2, 3] : Fin 2 → Fin S1x1x10x1.rank)
  bcast_S16x512x1x1024_S16x512x10x1024_0_1_2_3 : S16x512x1x1024.BroadcastsInDim S16x512x10x1024 (![0, 1, 2, 3] : Fin 4 → Fin S16x512x10x1024.rank)
  bcast_S1x1x10x1_S16x512x10x1024_0_1_2_3 : S1x1x10x1.BroadcastsInDim S16x512x10x1024 (![0, 1, 2, 3] : Fin 4 → Fin S16x512x10x1024.rank)
  reducesTo_S16x512x10x1024_S16x512x10_d3 : S16x512x10x1024.ReducesTo [3] S16x512x10
  bcast_S_S16x512x10 : S_.BroadcastsInDim S16x512x10 (![] : Fin 0 → Fin S16x512x10.rank)
  dot_S16x512x1024_S16x512x1024_S16x512x512_2_2_1_1_0_0_wf : DotDims.WF S16x512x1024 S16x512x1024 S16x512x512 [2] [2] [1] [1] [0] [0]
  dot_S16x512x512_S16x512x1024_S16x512x1024_2_1_1_2_0_0_wf : DotDims.WF S16x512x512 S16x512x1024 S16x512x1024 [2] [1] [1] [2] [0] [0]

variable [Facts₀]

def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf
def dot_S16x512x512_S16x512x1024_S16x512x1024_2_1_1_2_0_0 : DotDims S16x512x512 S16x512x1024 S16x512x1024 where
  lhsContracting := [2]
  rhsContracting := [1]
  lhsNonContracting := [1]
  rhsNonContracting := [2]
  lhsBatch := [0]
  rhsBatch := [0]
  wf := dot_S16x512x512_S16x512x1024_S16x512x1024_2_1_1_2_0_0_wf

class Facts : Prop extends Facts₀ where

variable [Facts]
-- ==== Proof.Spec.lean ====
/-
  The mathematics of this certificate, with no program in sight.

  For one row `s1` of the first sentence (1024 reals), the matrix `s2` of the second sentence of the same
  batch (512 rows of 1024) and one perspective weight `k`:

    cos m      = <s1, s2 m> / max (|s1| · |s2 m|, ε)                      the cosine of the row against row m
    mean d     = (Σ_m cos m · s2 m d) / (Σ_m cos m + ε)                   the attentive mean vector
    collapsed  = (<s1, mean> · k²) / max (k² · (|s1| · |mean|), ε)        the weight pulled out of both sums
    perspective = <k·s1, k·mean> / max (|k·s1| · |k·mean|, ε)             the weight applied to both vectors first

  Every operation is the extended-real one (`Ideal.div`, `Ideal.sqrt`, EReal's sum and product). The two last
  forms are equal for every FINITE weight `k`, whatever extended reals `s1` and `mean` hold: a product of four
  factors may be regrouped freely; the finite nonnegative factor `k²` distributes over any sum of extended reals;
  and `√(X · k²) = √X · |k|` holds for every extended real `X` (at `⊤`, at `⊥`, below zero and at `k = 0` alike).
-/
import Idealize.ShloMosaic.PureOps.Ideal
import Idealize.ShloMosaic.PureOps.Ideal.Laws

noncomputable section

namespace Cert.Spec

open Idealize.ShloMosaic

/-- The floor of both denominators and the shift of the summed cosines: the float32 nearest to 1e-8. -/
abbrev eps : EReal := Ideal.ofBits .f32 0x322BCC77#32

/-- The Euclidean length of a finite family of extended reals. -/
def norm2 {ι : Type} [Fintype ι] (v : ι → EReal) : EReal := Ideal.sqrt (∑ d, v d * v d)

/-- The cosine of the row `s1` against row `m` of `s2`, the product of the lengths floored at `eps`. -/
def cosRow (s1 : Fin 1024 → EReal) (s2 : Fin 512 → Fin 1024 → EReal) (m : Fin 512) : EReal :=
  Ideal.div (∑ d, s1 d * s2 m d) (max (norm2 s1 * norm2 (s2 m)) eps)

/-- The attentive mean: the rows of `s2` weighted by their cosines, over the shifted sum of the cosines. -/
def meanAtt (s1 : Fin 1024 → EReal) (s2 : Fin 512 → Fin 1024 → EReal) (d : Fin 1024) : EReal :=
  Ideal.div (∑ m, cosRow s1 s2 m * s2 m d) ((∑ m, cosRow s1 s2 m) + eps)

/-- The cosine of `k·s1` against `k·a` with the weight pulled out of the inner product and of both lengths. -/
def collapsed {ι : Type} [Fintype ι] (s a : ι → EReal) (k : EReal) : EReal :=
  Ideal.div ((∑ d, s d * a d) * (k * k)) (max ((k * k) * (norm2 s * norm2 a)) eps)

/-- The cosine of `k·s1` against `k·a`, both vectors scaled first. -/
def perspective {ι : Type} [Fintype ι] (s a : ι → EReal) (k : EReal) : EReal :=
  Ideal.div (∑ d, (s d * k) * (a d * k)) (max (norm2 (fun d => s d * k) * norm2 (fun d => a d * k)) eps)

/-- One entry of the result, in the first arrangement. -/
def outCollapsed (s1 : Fin 1024 → EReal) (s2 : Fin 512 → Fin 1024 → EReal) (k : EReal) : EReal :=
  collapsed s1 (meanAtt s1 s2) k

/-- One entry of the result, in the second arrangement. -/
def outPerspective (s1 : Fin 1024 → EReal) (s2 : Fin 512 → Fin 1024 → EReal) (k : EReal) : EReal :=
  perspective s1 (meanAtt s1 s2) k

/-! ## The law joining the two arrangements -/

/-- A finite nonnegative factor distributes over any finite sum of extended reals. -/
theorem sum_mul_coe_nonneg {ι : Type} [Fintype ι] (x : ι → EReal) {c : ℝ} (hc : 0 ≤ c) :
    ∑ d, x d * (c : EReal) = (∑ d, x d) * (c : EReal) := by
  classical
  refine Finset.induction_on (Finset.univ : Finset ι) (by simp) ?_
  intro a s ha ih
  rw [Finset.sum_insert ha, Finset.sum_insert ha, ih,
    EReal.right_distrib_of_nonneg_of_ne_top (EReal.coe_nonneg.2 hc) (EReal.coe_ne_top c)]

/-- `√(X · k²) = √X · |k|` for every extended real `X` and every real `k`. -/
theorem sqrt_mul_sq (X : EReal) (k : ℝ) :
    Ideal.sqrt (X * ((k * k : ℝ) : EReal)) = Ideal.sqrt X * ((|k| : ℝ) : EReal) := by
  by_cases hk : k = 0
  · subst hk
    have h0 : Ideal.sqrt ((0 : ℝ) : EReal) = ((0 : ℝ) : EReal) := by
      rw [Ideal.sqrt_coe]; simp
    simp only [mul_zero, abs_zero, EReal.coe_zero] at h0 ⊢
    exact h0
  · have hkk : 0 < k * k := mul_self_pos.2 hk
    have hak : 0 < |k| := abs_pos.2 hk
    induction X using EReal.rec with
    | bot => rw [EReal.bot_mul_coe_of_pos hkk, Ideal.sqrt_bot, EReal.bot_mul_coe_of_pos hak]
    | top => rw [EReal.top_mul_coe_of_pos hkk, Ideal.sqrt_top, EReal.top_mul_coe_of_pos hak]
    | coe r =>
      rw [← EReal.coe_mul, Ideal.sqrt_coe, Ideal.sqrt_coe]
      by_cases hr : r < 0
      · rw [if_pos hr, if_pos (mul_neg_of_neg_of_pos hr hkk), EReal.bot_mul_coe_of_pos hak]
      · rw [if_neg hr, if_neg (not_lt.2 (mul_nonneg (not_lt.1 hr) hkk.le)), ← EReal.coe_mul,
          Real.sqrt_mul (not_lt.1 hr), Real.sqrt_mul_self_eq_abs]

/-- The two arrangements agree at every finite weight. -/
theorem perspective_eq_collapsed {ι : Type} [Fintype ι] (s a : ι → EReal) (k : ℝ) :
    perspective s a (k : EReal) = collapsed s a (k : EReal) := by
  have hkk : (0 : ℝ) ≤ k * k := mul_self_nonneg k
  have hnum : ∑ d, (s d * (k : EReal)) * (a d * (k : EReal)) = (∑ d, s d * a d) * ((k : EReal) * (k : EReal)) := by
    rw [← EReal.coe_mul, ← sum_mul_coe_nonneg _ hkk]
    refine Finset.sum_congr rfl fun d _ => ?_
    rw [EReal.coe_mul, mul_mul_mul_comm]
  have hlen : ∀ v : ι → EReal, norm2 (fun d => v d * (k : EReal)) = norm2 v * ((|k| : ℝ) : EReal) := by
    intro v
    unfold norm2
    rw [← sqrt_mul_sq, ← sum_mul_coe_nonneg _ hkk]
    refine congrArg Ideal.sqrt (Finset.sum_congr rfl fun d _ => ?_)
    rw [EReal.coe_mul, mul_mul_mul_comm]
  have habs : ((|k| : ℝ) : EReal) * ((|k| : ℝ) : EReal) = (k : EReal) * (k : EReal) := by
    rw [← EReal.coe_mul, ← EReal.coe_mul, abs_mul_abs_self]
  unfold perspective collapsed
  rw [hnum, hlen s, hlen a, mul_mul_mul_comm, habs, mul_comm (norm2 s * norm2 a)]

theorem outPerspective_eq_outCollapsed (s1 : Fin 1024 → EReal) (s2 : Fin 512 → Fin 1024 → EReal) (k : ℝ) :
    outPerspective s1 s2 (k : EReal) = outCollapsed s1 s2 (k : EReal) :=
  perspective_eq_collapsed s1 (meanAtt s1 s2) k

end Cert.Spec

end
-- ==== Proof.RefValue.lean ====
/-
  The reference program's result, one entry at a time, is the mathematics of the specification.

  The reference computes, for the batch `b`, the row `l` of the first sentence and the perspective `p`:
  the inner products of row `l` against every row `m` of the second sentence, the two families of row lengths, the
  cosines (the product of the lengths floored at `eps`), the rows of the second sentence weighted by those cosines over
  the shifted sum of the cosines (the attentive mean), both vectors scaled by the perspective's weight, and the cosine
  of the two scaled vectors. Each stage is read at explicit coordinates and identified with the corresponding
  definition of the specification; every step is an unfolding, no algebra is needed.
-/
import proofs.«156836_j47923245089245_1_alg».proof.Proof.Gen.ReferenceIdeal.Read
import proofs.«156836_j47923245089245_1_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

variable (x0 x1 : (⟨S16x512x1024, .f32⟩ : BufTy).Contents (Elt Ideal)) (x2 : (⟨S10x1, .f32⟩ : BufTy).Contents (Elt Ideal))

/-! ## The composed index functions at explicit coordinates -/

/-- Summing a row of a [16,512,1024] array: the summand's index. -/
theorem idx_call0_v1 (b : Fin 16) (l : Fin 512) (k : Fin 1024) : idx_main_call0_v1 (ix2 b l) k = ix3 b l k :=
  funext fun a => Fin.ext (by match a with | ⟨0, _⟩ => rfl | ⟨1, _⟩ => rfl | ⟨2, _⟩ => rfl)

theorem idx_call1_v1 (b : Fin 16) (m : Fin 512) (k : Fin 1024) : idx_main_call1_v1 (ix2 b m) k = ix3 b m k :=
  funext fun a => Fin.ext (by match a with | ⟨0, _⟩ => rfl | ⟨1, _⟩ => rfl | ⟨2, _⟩ => rfl)

/-- The first inner product reads row `l` of the first sentence … -/
theorem lidx_v0 (b : Fin 16) (l m : Fin 512) (k : Fin 1024) : lidx_main_v0 (ix3 b l m) k = ix3 b l k :=
  funext fun a => Fin.ext (by match a with | ⟨0, _⟩ => rfl | ⟨1, _⟩ => rfl | ⟨2, _⟩ => rfl)

/-- … against row `m` of the second. -/
theorem ridx_v0 (b : Fin 16) (l m : Fin 512) (k : Fin 1024) : ridx_main_v0 (ix3 b l m) k = ix3 b m k :=
  funext fun a => Fin.ext (by match a with | ⟨0, _⟩ => rfl | ⟨1, _⟩ => rfl | ⟨2, _⟩ => rfl)

/-- The first length, spread over the columns `m`, is read at `(b, l)`. -/
theorem idx_v5 (b : Fin 16) (l m : Fin 512) : idx_main_v3 (idx_main_v5 (ix3 b l m)) = ix2 b l :=
  funext fun a => Fin.ext (by match a with | ⟨0, _⟩ => rfl | ⟨1, _⟩ => rfl)

/-- The second length, spread over the rows `l`, is read at `(b, m)`. -/
theorem idx_v6 (b : Fin 16) (l m : Fin 512) : idx_main_v4 (idx_main_v6 (ix3 b l m)) = ix2 b m :=
  funext fun a => Fin.ext (by match a with | ⟨0, _⟩ => rfl | ⟨1, _⟩ => rfl)

/-- The weighted sum reads the cosine of row `l` against row `k` … -/
theorem lidx_v11 (b : Fin 16) (l : Fin 512) (d : Fin 1024) (k : Fin 512) : lidx_main_v11 (ix3 b l d) k = ix3 b l k :=
  funext fun a => Fin.ext (by match a with | ⟨0, _⟩ => rfl | ⟨1, _⟩ => rfl | ⟨2, _⟩ => rfl)

/-- … times entry `d` of row `k` of the second sentence. -/
theorem ridx_v11 (b : Fin 16) (l : Fin 512) (d : Fin 1024) (k : Fin 512) : ridx_main_v11 (ix3 b l d) k = ix3 b k d :=
  funext fun a => Fin.ext (by match a with | ⟨0, _⟩ => rfl | ⟨1, _⟩ => rfl | ⟨2, _⟩ => rfl)

theorem idx_v12 (b : Fin 16) (l : Fin 512) (k : Fin 512) : idx_main_v12 (ix2 b l) k = ix3 b l k :=
  funext fun a => Fin.ext (by match a with | ⟨0, _⟩ => rfl | ⟨1, _⟩ => rfl | ⟨2, _⟩ => rfl)

/-- The shifted sum of the cosines, spread over the entries `d`, is read at `(b, l)`. -/
theorem idx_v16 (b : Fin 16) (l : Fin 512) (d : Fin 1024) : idx_main_v13 (idx_main_v16 (ix3 b l d)) = ix2 b l :=
  funext fun a => Fin.ext (by match a with | ⟨0, _⟩ => rfl | ⟨1, _⟩ => rfl)

/-- The first sentence spread over the perspectives. -/
theorem idx_v20 (b : Fin 16) (l : Fin 512) (p : Fin 10) (d : Fin 1024) :
    idx_main_v18 (idx_main_v20 (ix4 b l p d)) = ix3 b l d :=
  funext fun a => Fin.ext (by match a with | ⟨0, _⟩ => rfl | ⟨1, _⟩ => rfl | ⟨2, _⟩ => rfl)

/-- The weights spread over batch, row and entry. -/
theorem idx_v21 (b : Fin 16) (l : Fin 512) (p : Fin 10) (d : Fin 1024) :
    idx_main_v19 (idx_main_v21 (ix4 b l p d)) = ix2 p (0 : Fin 1) :=
  funext fun a => Fin.ext (by match a with | ⟨0, _⟩ => rfl | ⟨1, _⟩ => rfl)

/-- The attentive mean spread over the perspectives. -/
theorem idx_v25 (b : Fin 16) (l : Fin 512) (p : Fin 10) (d : Fin 1024) :
    idx_main_v23 (idx_main_v25 (ix4 b l p d)) = ix3 b l d :=
  funext fun a => Fin.ext (by match a with | ⟨0, _⟩ => rfl | ⟨1, _⟩ => rfl | ⟨2, _⟩ => rfl)

theorem idx_v26 (b : Fin 16) (l : Fin 512) (p : Fin 10) (d : Fin 1024) :
    idx_main_v24 (idx_main_v26 (ix4 b l p d)) = ix2 p (0 : Fin 1) :=
  funext fun a => Fin.ext (by match a with | ⟨0, _⟩ => rfl | ⟨1, _⟩ => rfl)

theorem idx_v29 (b : Fin 16) (l : Fin 512) (p : Fin 10) (k : Fin 1024) : idx_main_v29 (ix3 b l p) k = ix4 b l p k :=
  funext fun a => Fin.ext (by match a with | ⟨0, _⟩ => rfl | ⟨1, _⟩ => rfl | ⟨2, _⟩ => rfl | ⟨3, _⟩ => rfl)

theorem idx_call2_v1 (b : Fin 16) (l : Fin 512) (p : Fin 10) (k : Fin 1024) :
    idx_main_call2_v1 (ix3 b l p) k = ix4 b l p k :=
  funext fun a => Fin.ext (by match a with | ⟨0, _⟩ => rfl | ⟨1, _⟩ => rfl | ⟨2, _⟩ => rfl | ⟨3, _⟩ => rfl)

theorem idx_call3_v1 (b : Fin 16) (l : Fin 512) (p : Fin 10) (k : Fin 1024) :
    idx_main_call3_v1 (ix3 b l p) k = ix4 b l p k :=
  funext fun a => Fin.ext (by match a with | ⟨0, _⟩ => rfl | ⟨1, _⟩ => rfl | ⟨2, _⟩ => rfl | ⟨3, _⟩ => rfl)

/-! ## The row lengths and the cosines -/

/-- The length of row `l` of the first sentence. -/
theorem norm1_at (b : Fin 16) (l : Fin 512) :
    val_main_v1 (F := Ideal) x0 (ix2 b l) = Cert.Spec.norm2 (fun d => x0 (ix3 b l d)) := by
  rw [val_main_v1_apply, val_main_call0_v1_apply, val_main_call0_cst_apply]
  simp only [val_main_call0_v0_apply, idx_call0_v1, Ideal.hostUnary_sqrt_def, Ideal.ofBits_def, Ideal.ofBits_zero_f32,
    zero_add, Ideal.mulf_def]
  rfl

/-- The length of row `m` of the second sentence. -/
theorem norm2_at (b : Fin 16) (m : Fin 512) :
    val_main_v2 (F := Ideal) x1 (ix2 b m) = Cert.Spec.norm2 (fun d => x1 (ix3 b m d)) := by
  rw [val_main_v2_apply, val_main_call1_v1_apply, val_main_call1_cst_apply]
  simp only [val_main_call1_v0_apply, idx_call1_v1, Ideal.hostUnary_sqrt_def, Ideal.ofBits_def, Ideal.ofBits_zero_f32,
    zero_add, Ideal.mulf_def]
  rfl

/-- The cosine of row `l` of the first sentence against row `m` of the second. -/
theorem cos_at (b : Fin 16) (l m : Fin 512) :
    val_main_v10 (F := Ideal) x0 x1 (ix3 b l m)
      = Cert.Spec.cosRow (fun d => x0 (ix3 b l d)) (fun m d => x1 (ix3 b m d)) m := by
  rw [val_main_v10_apply, val_main_v0_apply, val_main_v9_apply, val_main_v7_apply, val_main_v8_apply, val_main_cst_apply,
    val_main_v5_apply, val_main_v3_apply, val_main_v6_apply, val_main_v4_apply, idx_v5, idx_v6, norm1_at, norm2_at]
  simp only [lidx_v0, ridx_v0, Ideal.hostDivf_def, Ideal.maximumf_def, Ideal.mulf_def, Ideal.ofBits_def]
  rfl

/-! ## The attentive mean -/

/-- Entry `d` of the attentive mean of row `l`: the rows of the second sentence weighted by their cosines, over the
    shifted sum of the cosines. -/
theorem mean_at (b : Fin 16) (l : Fin 512) (d : Fin 1024) :
    val_main_v17 (F := Ideal) x0 x1 (ix3 b l d)
      = Cert.Spec.meanAtt (fun d => x0 (ix3 b l d)) (fun m d => x1 (ix3 b m d)) d := by
  rw [val_main_v17_apply, val_main_v11_apply, val_main_v16_apply, val_main_v15_apply, val_main_v13_apply,
    val_main_v14_apply, val_main_cst_1_apply, idx_v16, val_main_v12_apply, val_main_cst_0_apply]
  simp only [lidx_v11, ridx_v11, idx_v12, cos_at, Ideal.hostDivf_def, Ideal.addf_def, Ideal.ofBits_def,
    Ideal.ofBits_zero_f32, zero_add]
  rfl

/-! ## The two scaled vectors and their cosine -/

/-- Entry `d` of row `l` of the first sentence, scaled by the weight of perspective `p`. -/
theorem scaled1_at (b : Fin 16) (l : Fin 512) (p : Fin 10) (d : Fin 1024) :
    val_main_v22 (F := Ideal) x0 x2 (ix4 b l p d) = x0 (ix3 b l d) * x2 (ix2 p (0 : Fin 1)) := by
  rw [val_main_v22_apply, val_main_v20_apply, val_main_v18_apply, val_main_v21_apply, val_main_v19_apply,
    idx_v20, idx_v21]
  rfl

/-- Entry `d` of the attentive mean of row `l`, scaled by the weight of perspective `p`. -/
theorem scaled2_at (b : Fin 16) (l : Fin 512) (p : Fin 10) (d : Fin 1024) :
    val_main_v27 (F := Ideal) x0 x1 x2 (ix4 b l p d)
      = Cert.Spec.meanAtt (fun d => x0 (ix3 b l d)) (fun m d => x1 (ix3 b m d)) d * x2 (ix2 p (0 : Fin 1)) := by
  rw [val_main_v27_apply, val_main_v25_apply, val_main_v23_apply, val_main_v26_apply, val_main_v24_apply,
    idx_v25, idx_v26, mean_at]
  rfl

/-- The inner product of the two scaled vectors. -/
theorem dot2_at (b : Fin 16) (l : Fin 512) (p : Fin 10) :
    val_main_v29 (F := Ideal) x0 x1 x2 (ix3 b l p)
      = ∑ d : Fin 1024, (x0 (ix3 b l d) * x2 (ix2 p (0 : Fin 1)))
          * (Cert.Spec.meanAtt (fun d => x0 (ix3 b l d)) (fun m d => x1 (ix3 b m d)) d * x2 (ix2 p (0 : Fin 1))) := by
  rw [val_main_v29_apply, val_main_cst_2_apply]
  simp only [val_main_v28_apply, idx_v29, scaled1_at, scaled2_at, Ideal.mulf_def, Ideal.ofBits_def,
    Ideal.ofBits_zero_f32, zero_add]

/-- The length of the scaled row of the first sentence. -/
theorem len1_at (b : Fin 16) (l : Fin 512) (p : Fin 10) :
    val_main_v30 (F := Ideal) x0 x2 (ix3 b l p)
      = Cert.Spec.norm2 (fun d : Fin 1024 => x0 (ix3 b l d) * x2 (ix2 p (0 : Fin 1))) := by
  rw [val_main_v30_apply, val_main_call2_v1_apply, val_main_call2_cst_apply]
  simp only [val_main_call2_v0_apply, idx_call2_v1, scaled1_at, Ideal.hostUnary_sqrt_def, Ideal.mulf_def,
    Ideal.ofBits_def, Ideal.ofBits_zero_f32, zero_add]
  rfl

/-- The length of the scaled attentive mean. -/
theorem len2_at (b : Fin 16) (l : Fin 512) (p : Fin 10) :
    val_main_v31 (F := Ideal) x0 x1 x2 (ix3 b l p)
      = Cert.Spec.norm2 (fun d : Fin 1024 =>
          Cert.Spec.meanAtt (fun d => x0 (ix3 b l d)) (fun m d => x1 (ix3 b m d)) d * x2 (ix2 p (0 : Fin 1))) := by
  rw [val_main_v31_apply, val_main_call3_v1_apply, val_main_call3_cst_apply]
  simp only [val_main_call3_v0_apply, idx_call3_v1, scaled2_at, Ideal.hostUnary_sqrt_def, Ideal.mulf_def,
    Ideal.ofBits_def, Ideal.ofBits_zero_f32, zero_add]
  rfl

/-- One entry of the reference's result: the cosine of the scaled row against the scaled attentive mean. -/
theorem ref_at (b : Fin 16) (l : Fin 512) (p : Fin 10) :
    val_main_v35 (F := Ideal) x0 x1 x2 (ix3 b l p)
      = Cert.Spec.outPerspective (fun d => x0 (ix3 b l d)) (fun m d => x1 (ix3 b m d)) (x2 (ix2 p (0 : Fin 1))) := by
  rw [val_main_v35_apply, val_main_v34_apply, val_main_v32_apply, val_main_v33_apply, val_main_cst_3_apply,
    dot2_at, len1_at, len2_at]
  rfl

end Cert.ReferenceIdeal.RefValue

end
-- ==== Proof.Finite.lean ====
/-
  Under the precondition every weight is a real number.

  The precondition is the conjunction of three statements "every entry of the array has absolute value below +∞",
  one per argument array. Only the third, over the 10×1 array of weights, is used here: an extended real whose
  absolute value `max x (-x)` is below `⊤` is neither `⊥` nor `⊤`, hence a real.
-/
import proofs.«156836_j47923245089245_1_alg».proof.Defs
import proofs.«156836_j47923245089245_1_alg».proof.Proof.Gen.Pre_finite_inputs
import proofs.«156836_j47923245089245_1_alg».proof.Proof.Gen.KernelIdeal
import Idealize.ShloMosaic.Lib.ReduceAll
import Idealize.ShloMosaic.Lib.ValueIdx

noncomputable section

namespace Cert.Finite

open Idealize.ShloMosaic Idealize.SL.Sem Idealize.ShloMosaic.ValueIdx

/-- The scalar shape has one index. -/
instance : Subsingleton Cert.Pre_finite_inputs.S_.Idx := ⟨fun a b => funext fun d => d.elim0⟩

/-- The f32 word of +∞ denotes `⊤`. -/
theorem ofBits_inf_f32 : Ideal.ofBits .f32 0x7F800000#32 = ⊤ := by simp [Ideal.ofBits, Ideal.ieee]

/-- An extended real whose absolute value is below `⊤` is a real: at `⊥` and at `⊤` the absolute value is `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- A comparison "below `⊤`" that came out true. -/
theorem lt_top_of_cmp_olt (a : EReal) (h : Ideal.cmp .olt a ⊤ = 1#1) : a < ⊤ := by
  by_contra hn
  simp [Ideal.cmp, hn] at h

/-- Under the precondition every entry of the 10×1 array of weights is a real number. -/
theorem weight_real (m : (ℓ : Loc Cert.KernelIdeal.nD Cert.KernelIdeal.τ Cert.KernelIdeal.sig) → Buf (Elt Ideal) ℓ)
    (h : Cert.Pre_KernelIdeal m) (c : Dev Cert.KernelIdeal.nD) (p : Fin 10) :
    ∃ r : ℝ, m ((c.tc : Thread Cert.KernelIdeal.nD Cert.KernelIdeal.τ).loc Cert.KernelIdeal.main_arg2) (ix2 p (0 : Fin 1))
      = (r : EReal) := by
  have h0 := congrFun (h c) ValueIdx.ix0
  dsimp only [Cert.Pre_finite_inputs.fn] at h0
  have h12 := (IntOp.andi_eq_one.1 h0).2
  have he := Host.reduce_andi_all _ _ _ _ _ h12 (ix2 p (0 : Fin 1))
  refine real_of_abs_lt_top _ (lt_top_of_cmp_olt _ ?_)
  rw [← ofBits_inf_f32]
  exact he

end Cert.Finite

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.KernelMean.lean ====
/-
  The attentive mean as the kernel's body computes it, entry by entry.

  For a block `X` of 256 rows of the first sentence and the matrix `Y` of the 512 rows of the second sentence, the
  body forms the 256 × 512 matrix of cosines — the product `X · Yᵀ` over the floored products of the rows' lengths,
  the lengths of `Y`'s rows brought from a column to a row by a transpose — and from it the 256 × 1024 matrix of
  attentive means: the product of the cosines with `Y`, each row over its shifted sum of cosines. Read at `(r, m)` and
  at `(r, d)` these are `Cert.Spec.cosRow` and `Cert.Spec.meanAtt` of row `r` of `X` and the rows of `Y`: a matrix
  product into a zero accumulator is the plain sum over the contracted coordinate, a row reduction the sum over the
  row, a change of float format the identity, and a column of per-row values read at `(r, 0)` is the value of row `r`.
-/
import proofs.«156836_j47923245089245_1_alg».proof.Proof.Gen.KernelIdeal.Skeleton
import proofs.«156836_j47923245089245_1_alg».proof.Proof.Spec
import proofs.«156836_j47923245089245_1_alg».proof.Proof.LibColumns
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Columns

/-! ## Rows: sums and lengths -/

/-- A reduction by addition along the second axis, from the zero word, read at row `r`: the sum over the row. -/
theorem rowSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec (FTy.bits .f32)) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (congrArg (fun f : Fin b → EReal => ∑ k : Fin b, f k) (funext fun k => congrArg src (lift_row h r k)))

/-- The column of the rows' lengths, read at `(r, 0)`: the length of row `r`. -/
theorem rowNorm_apply {a b : ℕ} (X : FVec Ideal ⟨2, ![a, b]⟩ .f32)
    (h : (⟨2, ![a, b]⟩ : Shape).Reduces [1] (⟨1, ![a]⟩ : Shape)) (hφ : FKind.Formats .f32)
    (hacc : (0x00000000#32 : BitVec (FTy.bits .f32)) = FKind.add.neutral .f32 hφ)
    (hc : (⟨1, ![a]⟩ : Shape).ShapeCasts ⟨2, ![a, 1]⟩) (r : Fin a) :
    (sqrt (shapeCast ⟨2, ![a, 1]⟩ (multiReduction .add [1] ⟨1, ![a]⟩ (mulf X X) 0x00000000#32 h hφ hacc) hc) :
        FVec Ideal ⟨2, ![a, 1]⟩ .f32) (ix2 r (0 : Fin 1))
      = Cert.Spec.norm2 (fun d : Fin b => X (ix2 r d)) := by
  show Ideal.sqrt ((shapeCast ⟨2, ![a, 1]⟩ (multiReduction .add [1] ⟨1, ![a]⟩ (mulf X X) 0x00000000#32 h hφ hacc) hc) (ix2 r (0 : Fin 1)))
    = Ideal.sqrt (∑ d : Fin b, X (ix2 r d) * X (ix2 r d))
  refine congrArg Ideal.sqrt ?_
  refine (shapeCast_a_a1_apply _ hc r 0).trans ?_
  exact rowSum_apply (mulf X X) h hφ hacc r

/-! ## The two matrix products at an entry -/

theorem lhs1_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs1_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem rhs1_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem rhs1_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- The 256 × 1024 by 1024 × 512 product into the zero accumulator, at `(r, c)`: the sum over the 1024 contracted
    coordinates of the left row's entry times the right column's. -/
theorem matmul1_apply {φ₁ φ₂ : FTy} (lhs : FVec Ideal S256x1024 φ₁) (rhs : FVec Ideal S1024x512 φ₂) (r : Fin 256) (c : Fin 512) :
    matmul dot_S256x1024_S1024x512_S256x512_1_0_0_1_n_n none lhs rhs (constant S256x512 .f32 0x00000000#32) (ix2 r c)
      = ∑ k : Fin 1024, lhs (ix2 r k) * rhs (ix2 k c) := by
  refine (Ideal.matmul_constant_zero_apply dot_S256x1024_S1024x512_S256x512_1_0_0_1_n_n none lhs rhs (ix2 r c)).trans ?_
  rw [← Equiv.sum_comp (ValueIdx.contrEquiv1 dot_S256x1024_S1024x512_S256x512_1_0_0_1_n_n 1024 rfl rfl).symm]
  refine Finset.sum_congr rfl fun k _ => ?_
  have hk := ValueIdx.contrEquiv1_symm_val dot_S256x1024_S1024x512_S256x512_1_0_0_1_n_n 1024 rfl rfl k
  have el : dot_S256x1024_S1024x512_S256x512_1_0_0_1_n_n.lhsIdx (ix2 r c) ((ValueIdx.contrEquiv1 dot_S256x1024_S1024x512_S256x512_1_0_0_1_n_n 1024 rfl rfl).symm k) = ix2 r k := funext fun a => Fin.ext (by
    match a with
    | ⟨0, _⟩ => exact lhs1_0 _ _
    | ⟨1, _⟩ => exact (lhs1_1 _ _).trans hk)
  have er : dot_S256x1024_S1024x512_S256x512_1_0_0_1_n_n.rhsIdx (ix2 r c) ((ValueIdx.contrEquiv1 dot_S256x1024_S1024x512_S256x512_1_0_0_1_n_n 1024 rfl rfl).symm k) = ix2 k c := funext fun a => Fin.ext (by
    match a with
    | ⟨0, _⟩ => exact (rhs1_0 _ _).trans hk
    | ⟨1, _⟩ => exact rhs1_1 _ _)
  rw [el, er]

theorem lhs2_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhs2_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhs2_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhs2_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- The 256 × 512 by 512 × 1024 product into the zero accumulator, at `(r, c)`: the sum over the 512 contracted
    coordinates. -/
theorem matmul2_apply {φ₁ φ₂ : FTy} (lhs : FVec Ideal S256x512 φ₁) (rhs : FVec Ideal S512x1024 φ₂) (r : Fin 256) (c : Fin 1024) :
    matmul dot_S256x512_S512x1024_S256x1024_1_0_0_1_n_n none lhs rhs (constant S256x1024 .f32 0x00000000#32) (ix2 r c)
      = ∑ k : Fin 512, lhs (ix2 r k) * rhs (ix2 k c) := by
  refine (Ideal.matmul_constant_zero_apply dot_S256x512_S512x1024_S256x1024_1_0_0_1_n_n none lhs rhs (ix2 r c)).trans ?_
  rw [← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx (ix2 r c) ((ValueIdx.contrEquiv1 dot_S256x512_S512x1024_S256x1024_1_0_0_1_n_n 512 rfl rfl).symm k) = ix2 r k := funext fun a => Fin.ext (by
    match a with
    | ⟨0, _⟩ => exact lhs2_0 _ _
    | ⟨1, _⟩ => exact (lhs2_1 _ _).trans hk)
  have er : dot_S256x512_S512x1024_S256x1024_1_0_0_1_n_n.rhsIdx (ix2 r c) ((ValueIdx.contrEquiv1 dot_S256x512_S512x1024_S256x1024_1_0_0_1_n_n 512 rfl rfl).symm k) = ix2 k c := funext fun a => Fin.ext (by
    match a with
    | ⟨0, _⟩ => exact (rhs2_0 _ _).trans hk
    | ⟨1, _⟩ => exact rhs2_1 _ _)
  rw [el, er]

/-! ## The cosines and the attentive means as matrices -/

/-- The 256 × 512 matrix of cosines of the rows of `X` against the rows of `Y`, as the body builds it. -/
def cosVec (X : FVec Ideal S256x1024 .f32) (Y : FVec Ideal S512x1024 .f32) : FVec Ideal S256x512 .f32 :=
  divf
    (matmul dot_S256x1024_S1024x512_S256x512_1_0_0_1_n_n none (truncf .bf16 X bitsLt_bf16_f32)
      (transpose S1024x512 [1, 0] (truncf .bf16 Y bitsLt_bf16_f32) transposes_S512x1024_p1_0_S1024x512)
      (constant S256x512 .f32 0x00000000#32))
    (maximumf
      (mulf
        (broadcastTo S256x512
          (sqrt (shapeCast S256x1 (multiReduction .add [1] S256 (mulf X X) 0x00000000#32 reduces_S256x1024_S256 (.inl rfl) rfl) shapeCasts_S256_S256x1))
          broadcasts_S256x1_S256x512)
        (broadcastTo S256x512
          (transpose S1x512 [1, 0]
            (sqrt (shapeCast S512x1 (multiReduction .add [1] S512 (mulf Y Y) 0x00000000#32 reduces_S512x1024_S512 (.inl rfl) rfl) shapeCasts_S512_S512x1))
            transposes_S512x1_p1_0_S1x512)
          broadcasts_S1x512_S256x512))
      (broadcast S256x512 (Scalar.ofBits .f32 0x322BCC77#32)))

/-- The 256 × 1024 matrix of attentive means, as the body builds it from the cosines. -/
def meanVec (X : FVec Ideal S256x1024 .f32) (Y : FVec Ideal S512x1024 .f32) : FVec Ideal S256x1024 .f32 :=
  divf
    (matmul dot_S256x512_S512x1024_S256x1024_1_0_0_1_n_n none (truncf .bf16 (cosVec X Y) bitsLt_bf16_f32)
      (truncf .bf16 Y bitsLt_bf16_f32) (constant S256x1024 .f32 0x00000000#32))
    (broadcastTo S256x1024
      (addf
        (shapeCast S256x1 (multiReduction .add [1] S256 (cosVec X Y) 0x00000000#32 reduces_S256x512_S256 (.inl rfl) rfl) shapeCasts_S256_S256x1)
        (broadcast S256x1 (Scalar.ofBits .f32 0x322BCC77#32)))
      broadcasts_S256x1_S256x1024)

/-- The payload of the attentive means is `meanVec` of the two loaded blocks with their leading unit axis dropped. -/
theorem k0_pay4_eq (P0 : Vec Ideal S1x256x1024 .f32) (P1 : Vec Ideal S1x512x1024 .f32) :
    k0_pay4 P0 P1 = meanVec (shapeCast S256x1024 P0 shapeCasts_S1x256x1024_S256x1024) (shapeCast S512x1024 P1 shapeCasts_S1x512x1024_S512x1024) := rfl

/-- The cosine matrix at `(r, m)` is the cosine of row `r` of `X` against row `m` of `Y`. -/
theorem cosVec_apply (X : FVec Ideal S256x1024 .f32) (Y : FVec Ideal S512x1024 .f32) (r : Fin 256) (m : Fin 512) :
    cosVec X Y (ix2 r m) = Cert.Spec.cosRow (fun d => X (ix2 r d)) (fun m d => Y (ix2 m d)) m := by
  unfold cosVec Cert.Spec.cosRow
  refine congrArg₂ Ideal.div ?_ (congrArg₂ max (congrArg₂ (· * ·) ?_ ?_) rfl)
  · refine (matmul1_apply _ _ r m).trans (Finset.sum_congr rfl fun k _ => ?_)
    exact congrArg (fun z : EReal => X (ix2 r k) * z) (transpose_ix2_apply _ transposes_S512x1024_p1_0_S1024x512 k m)
  · exact (broadcastTo_a1_ab_apply _ broadcasts_S256x1_S256x512 r m).trans
      (rowNorm_apply X reduces_S256x1024_S256 (.inl rfl) rfl shapeCasts_S256_S256x1 r)
  · refine (broadcastTo_1b_ab_apply _ broadcasts_S1x512_S256x512 r m).trans ?_
    refine (transpose_ix2_apply _ transposes_S512x1_p1_0_S1x512 (0 : Fin 1) m).trans ?_
    exact rowNorm_apply Y reduces_S512x1024_S512 (.inl rfl) rfl shapeCasts_S512_S512x1 m

/-- The matrix of attentive means at `(r, d)` is the attentive mean of row `r` of `X` over the rows of `Y`, at `d`. -/
theorem meanVec_apply (X : FVec Ideal S256x1024 .f32) (Y : FVec Ideal S512x1024 .f32) (r : Fin 256) (d : Fin 1024) :
    meanVec X Y (ix2 r d) = Cert.Spec.meanAtt (fun d => X (ix2 r d)) (fun m d => Y (ix2 m d)) d := by
  unfold meanVec Cert.Spec.meanAtt
  refine congrArg₂ Ideal.div ?_ ?_
  · refine (matmul2_apply _ _ r d).trans (Finset.sum_congr rfl fun k _ => ?_)
    exact congrArg (fun z : EReal => z * Y (ix2 k d)) (cosVec_apply X Y r k)
  · refine (broadcastTo_a1_ab_apply _ broadcasts_S256x1_S256x1024 r d).trans ?_
    refine congrArg (fun z : EReal => z + Cert.Spec.eps) ?_
    refine (shapeCast_a_a1_apply _ shapeCasts_S256_S256x1 r 0).trans ?_
    refine (rowSum_apply (cosVec X Y) reduces_S256x512_S256 (.inl rfl) rfl r).trans ?_
    exact Finset.sum_congr rfl fun k _ => cosVec_apply X Y r k

end Cert.KernelIdeal.Body

end
-- ==== Proof.KernelBlock.lean ====
/-
  One entry of the block the body leaves, as the specification's collapsed cosine.

  The body's last stage reads, at row `r` and perspective `p` of the block: the row sum of the products of row `r`
  of the first sentence's block with its attentive mean; the squared weight of perspective `p`; and the lengths of
  the row and of its attentive mean, both as square roots of row sums of squares. With the attentive mean read entry
  by entry (the matrix of means at `(r, d)` is `Cert.Spec.meanAtt` of row `r` and the rows of the second sentence's
  block) this is `Cert.Spec.outCollapsed` of row `r`, those rows and the weight.
-/
import proofs.«156836_j47923245089245_1_alg».proof.Proof.Gen.KernelIdeal.Value
import proofs.«156836_j47923245089245_1_alg».proof.Proof.KernelMean

noncomputable section

namespace Cert.KernelIdeal.Body

open Cert.KernelIdeal Cert.KernelIdeal.Gen Idealize.ShloMosaic Idealize.ShloMosaic.ValueIdx Cert.Columns

/-- The three zero offsets of a rank-3 whole-buffer rectangle. -/
theorem zero3 : (![0, 0, 0] : Fin 3 → Nat) = fun _ => 0 := funext fun a => by fin_cases a <;> rfl
/-- The two zero offsets of a rank-2 whole-buffer rectangle. -/
theorem zero2 : (![0, 0] : Fin 2 → Nat) = fun _ => 0 := funext fun a => by fin_cases a <;> rfl

/-- Row `r` of the first block with its leading unit axis dropped. -/
theorem row0 (P0 : Vec Ideal S1x256x1024 .f32) (r : Fin 256) :
    (fun d : Fin 1024 => (shapeCast S256x1024 P0 shapeCasts_S1x256x1024_S256x1024 : FVec Ideal S256x1024 .f32) (ix2 r d))
      = fun d => P0 (ix3 (0 : Fin 1) r d) :=
  funext fun d => shapeCast_1ab_ab_apply P0 shapeCasts_S1x256x1024_S256x1024 r d

/-- The rows of the second block with its leading unit axis dropped. -/
theorem rows1 (P1 : Vec Ideal S1x512x1024 .f32) :
    (fun (m : Fin 512) (d : Fin 1024) => (shapeCast S512x1024 P1 shapeCasts_S1x512x1024_S512x1024 : FVec Ideal S512x1024 .f32) (ix2 m d))
      = fun m d => P1 (ix3 (0 : Fin 1) m d) :=
  funext fun m => funext fun d => shapeCast_1ab_ab_apply P1 shapeCasts_S1x512x1024_S512x1024 m d

/-- The payload of attentive means at `(r, d)`: the attentive mean of row `r` of the first block over the rows of the
    second, at `d`. -/
theorem pay4_apply (P0 : Vec Ideal S1x256x1024 .f32) (P1 : Vec Ideal S1x512x1024 .f32) (r : Fin 256) (d : Fin 1024) :
    k0_pay4 P0 P1 (ix2 r d)
      = Cert.Spec.meanAtt (fun d => P0 (ix3 (0 : Fin 1) r d)) (fun m d => P1 (ix3 (0 : Fin 1) m d)) d := by
  rw [k0_pay4_eq, meanVec_apply, row0, rows1]

/-- The block the pieces leave, at `(0, r, p)`. -/
theorem E3_entry (P0 : Vec Ideal S1x256x1024 .f32) (P1 : Vec Ideal S1x512x1024 .f32) (P2 : Vec Ideal S1x10 .f32)
    (r : Fin 256) (p : Fin 10) :
    Cert.KernelIdeal.Value.E3 P0 P1 P2 (ix3 (0 : Fin 1) r p)
      = Cert.Spec.outCollapsed (fun d => P0 (ix3 (0 : Fin 1) r d)) (fun m d => P1 (ix3 (0 : Fin 1) m d)) (P2 (ix2 (0 : Fin 1) p)) := by
  have hr : ∀ q : S256.Idx, (∀ a, (q a).val = r.val) → q = ix1 r := fun q hq =>
    funext fun a => Fin.ext (by match a with | ⟨0, _⟩ => exact hq 0)
  have hi0 : Cert.KernelIdeal.Value.ix3_0 (ix3 (0 : Fin 1) r p) = ix1 r := hr _ fun a => by match a with | ⟨0, _⟩ => rfl
  have hi5 : Cert.KernelIdeal.Value.ix3_5 (ix3 (0 : Fin 1) r p) = ix1 r := hr _ fun a => by match a with | ⟨0, _⟩ => rfl
  have hi6 : Cert.KernelIdeal.Value.ix3_6 (ix3 (0 : Fin 1) r p) = ix1 r := hr _ fun a => by match a with | ⟨0, _⟩ => rfl
  have hi1 : Cert.KernelIdeal.Value.ix3_1 (ix3 (0 : Fin 1) r p) = ix2 (0 : Fin 1) p :=
    funext fun a => Fin.ext (by match a with | ⟨0, _⟩ => rfl | ⟨1, _⟩ => rfl)
  have hi2 : Cert.KernelIdeal.Value.ix3_2 (ix3 (0 : Fin 1) r p) = ix2 (0 : Fin 1) p :=
    funext fun a => Fin.ext (by match a with | ⟨0, _⟩ => rfl | ⟨1, _⟩ => rfl)
  have hi3 : Cert.KernelIdeal.Value.ix3_3 (ix3 (0 : Fin 1) r p) = ix2 (0 : Fin 1) p :=
    funext fun a => Fin.ext (by match a with | ⟨0, _⟩ => rfl | ⟨1, _⟩ => rfl)
  have hi4 : Cert.KernelIdeal.Value.ix3_4 (ix3 (0 : Fin 1) r p) = ix2 (0 : Fin 1) p :=
    funext fun a => Fin.ext (by match a with | ⟨0, _⟩ => rfl | ⟨1, _⟩ => rfl)
  -- the three row sums
  have h1 : (multiReduction .add [1] S256 (mulf (shapeCast S256x1024 P0 shapeCasts_S1x256x1024_S256x1024) (k0_pay4 P0 P1)) 0x00000000#32 reduces_S256x1024_S256 (.inl rfl) rfl : FVec Ideal S256 .f32) (ix1 r)
      = ∑ d : Fin 1024, P0 (ix3 (0 : Fin 1) r d) * Cert.Spec.meanAtt (fun d => P0 (ix3 (0 : Fin 1) r d)) (fun m d => P1 (ix3 (0 : Fin 1) m d)) d := by
    refine (rowSum_apply _ reduces_S256x1024_S256 (.inl rfl) rfl r).trans (Finset.sum_congr rfl fun d _ => ?_)
    exact congrArg₂ (· * ·) (shapeCast_1ab_ab_apply P0 shapeCasts_S1x256x1024_S256x1024 r d) (pay4_apply P0 P1 r d)
  have h2 : (multiReduction .add [1] S256 (mulf (shapeCast S256x1024 P0 shapeCasts_S1x256x1024_S256x1024) (shapeCast S256x1024 P0 shapeCasts_S1x256x1024_S256x1024)) 0x00000000#32 reduces_S256x1024_S256 (.inl rfl) rfl : FVec Ideal S256 .f32) (ix1 r)
      = ∑ d : Fin 1024, P0 (ix3 (0 : Fin 1) r d) * P0 (ix3 (0 : Fin 1) r d) := by
    refine (rowSum_apply _ reduces_S256x1024_S256 (.inl rfl) rfl r).trans (Finset.sum_congr rfl fun d _ => ?_)
    exact congrArg₂ (· * ·) (shapeCast_1ab_ab_apply P0 shapeCasts_S1x256x1024_S256x1024 r d) (shapeCast_1ab_ab_apply P0 shapeCasts_S1x256x1024_S256x1024 r d)
  have h3 : (multiReduction .add [1] S256 (mulf (k0_pay4 P0 P1) (k0_pay4 P0 P1)) 0x00000000#32 reduces_S256x1024_S256 (.inl rfl) rfl : FVec Ideal S256 .f32) (ix1 r)
      = ∑ d : Fin 1024, Cert.Spec.meanAtt (fun d => P0 (ix3 (0 : Fin 1) r d)) (fun m d => P1 (ix3 (0 : Fin 1) m d)) d
          * Cert.Spec.meanAtt (fun d => P0 (ix3 (0 : Fin 1) r d)) (fun m d => P1 (ix3 (0 : Fin 1) m d)) d := by
    refine (rowSum_apply _ reduces_S256x1024_S256 (.inl rfl) rfl r).trans (Finset.sum_congr rfl fun d _ => ?_)
    exact congrArg₂ (· * ·) (pay4_apply P0 P1 r d) (pay4_apply P0 P1 r d)
  unfold Cert.Spec.outCollapsed Cert.Spec.collapsed Cert.Spec.norm2
  dsimp only [Cert.KernelIdeal.Value.E3]
  rw [hi0, hi1, hi2, hi3, hi4, hi5, hi6]
  exact congrArg₂ Ideal.div (congrArg₂ (· * ·) h1 rfl)
    (congrArg₂ max (congrArg₂ (· * ·) rfl (congrArg₂ (· * ·) (congrArg Ideal.sqrt h2) (congrArg Ideal.sqrt h3))) rfl)

/-- What the body leaves in the output window's buffer, at `(0, r, p)`, from the three input blocks. -/
theorem out_entry (x0 : Vec Ideal S1x256x1024 .f32) (x1 : Vec Ideal S1x512x1024 .f32) (x2 : Vec Ideal S1x10 .f32)
    (r : Fin 256) (p : Fin 10) :
    out0_3 x0 x1 x2 (ix3 (0 : Fin 1) r p)
      = Cert.Spec.outCollapsed (fun d => x0 (ix3 (0 : Fin 1) r d)) (fun m d => x1 (ix3 (0 : Fin 1) m d)) (x2 (ix2 (0 : Fin 1) p)) := by
  unfold out0_3
  refine (Cert.KernelIdeal.Value.canon3_eq _ _ _ _).trans ?_
  refine (E3_entry _ _ _ r p).trans ?_
  rw [View.ld_unit_zero (S := S1x256x1024) zero3, View.ld_unit_zero (S := S1x512x1024) zero3, View.ld_unit_zero (S := S1x10) zero2]

end Cert.KernelIdeal.Body

end
-- ==== Proof.KernelArray.lean ====
/-
  From the blocks to the whole result array.

  The grid has 16 × 2 points: point `(b, i)` stages rows `256·i … 256·i + 255` of batch `b` of the first sentence,
  all 512 rows of batch `b` of the second, and the one row of ten weights (the 10 × 1 argument re-laid as 1 × 10 before
  the region), and writes back rows `256·i … 256·i + 255` of batch `b` of the result. So entry `(b, l, p)` of the
  result depends on row `l` of batch `b` of the first sentence, on batch `b` of the second and on weight `p` only, and it
  is `Cert.Spec.outCollapsed` of these — the same function at every point, hence one function `whole` of the three
  argument arrays; the 32 blocks tile the result array (the point that covers row `l` of batch `b` is `(b, l / 256)`).
-/
import proofs.«156836_j47923245089245_1_alg».proof.Proof.Gen.KernelIdeal.Value
import proofs.«156836_j47923245089245_1_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result as the region computes it from its three staged arrays: entry `(b, l, p)` from row `l` of batch `b` of
    `A0`, batch `b` of `A1` and entry `p` of the row of weights `K`. -/
def blockwise (A0 A1 : S16x512x1024.Idx → Elt Ideal .f32) (K : S1x10.Idx → Elt Ideal .f32) : S16x512x10.Idx → Elt Ideal .f32 :=
  fun i => Cert.Spec.outCollapsed (fun d => A0 (ix3 (i 0) (i 1) d)) (fun m d => A1 (ix3 (i 0) m d)) (K (ix2 (0 : Fin 1) (i 2)))

/-- The result as one function of the three ARGUMENT arrays, the weights a 10 × 1 column. -/
def whole (A0 A1 : S16x512x1024.Idx → Elt Ideal .f32) (A2 : S10x1.Idx → Elt Ideal .f32) : S16x512x10.Idx → Elt Ideal .f32 :=
  fun i => Cert.Spec.outCollapsed (fun d => A0 (ix3 (i 0) (i 1) d)) (fun m d => A1 (ix3 (i 0) m d)) (A2 (ix2 (i 2) (0 : Fin 1)))

/-- The index maps over the 32 points: the first sentence's window moves with the result's on batch and row block,
    the second's on the batch only, the weights' not at all; the block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (2 : Fin 3) = 0 ∧ win0_3.index t (0 : Fin 3) ≤ 15 ∧ win0_3.index t (1 : Fin 3) ≤ 1 :=
  (by decide +kernel : ∀ t : Fin grid0.N, _)

/-- Every (batch, row block) pair is some point's. -/
theorem idx_onto : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-- What point `t` writes back is block `t` of `blockwise` of the arrays as the region finds them. -/
theorem flushed_eq (c : Dev nD) (t : Fin cfg0.N) :
    (dats m 0 c).flushed 3 t
      = ((cfg0.win 3).blk t).view.read (Elt Ideal) (blockwise (V m c main_arg0) (V m c main_arg1) (V m c main_v0)) := by
  show (cfg0.win 3).cut (grid0.coords t) ((dats m 0 c).after 3 t) = _
  rw [after0_3]
  obtain ⟨e00, e01, e02, e10, e11, e12, e20, e21, e32, b0, b1⟩ := idx_facts t
  refine funext fun (j : S1x256x10.Idx) => ?_
  obtain ⟨u, r, p, rfl⟩ : ∃ (u : Fin 1) (r : Fin 256) (p : Fin 10), j = ix3 u r p := ⟨j 0, j 1, j 2, eq_ix3 j⟩
  have hu : u = 0 := Fin.ext (by omega)
  subst hu
  show out0_3 (iblk m c 0 t) (iblk m c 1 t) (iblk m c 2 t) (ix3 (0 : Fin 1) r p)
    = blockwise (V m c main_arg0) (V m c main_arg1) (V m c main_v0) (((cfg0.win 3).blk t).view.emb (ix3 (0 : Fin 1) r p))
  refine (out_entry _ _ _ r p).trans ?_
  unfold blockwise
  have h0 : (fun d : Fin 1024 => iblk m c 0 t (ix3 (0 : Fin 1) r d))
      = fun d => V m c main_arg0 (ix3 ((((cfg0.win 3).blk t).view.emb (ix3 (0 : Fin 1) r p)) 0) ((((cfg0.win 3).blk t).view.emb (ix3 (0 : Fin 1) r p)) 1) d) := by
    funext d
    show V m c main_arg0 (((cfg0.win 0).blk t).view.emb (ix3 (0 : Fin 1) r d)) = _
    refine congrArg (V m c main_arg0) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 256 + 1 * r.val = win0_3.index t (1 : Fin 3) * 256 + 1 * r.val; omega
    | ⟨2, _⟩ => show win0_0.index t (2 : Fin 3) * 1024 + 1 * d.val = d.val; omega
  have h1 : (fun (k : Fin 512) (d : Fin 1024) => iblk m c 1 t (ix3 (0 : Fin 1) k d))
      = fun k d => V m c main_arg1 (ix3 ((((cfg0.win 3).blk t).view.emb (ix3 (0 : Fin 1) r p)) 0) k d) := by
    funext k d
    show V m c main_arg1 (((cfg0.win 1).blk t).view.emb (ix3 (0 : Fin 1) k d)) = _
    refine congrArg (V m c main_arg1) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 512 + 1 * k.val = k.val; omega
    | ⟨2, _⟩ => show win0_1.index t (2 : Fin 3) * 1024 + 1 * d.val = d.val; omega
  have h2 : iblk m c 2 t (ix2 (0 : Fin 1) p)
      = V m c main_v0 (ix2 (0 : Fin 1) ((((cfg0.win 3).blk t).view.emb (ix3 (0 : Fin 1) r p)) 2)) := by
    show V m c main_v0 (((cfg0.win 2).blk t).view.emb (ix2 (0 : Fin 1) p)) = _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 10 + 1 * p.val = win0_3.index t (2 : Fin 3) * 10 + 1 * p.val; omega
  rw [h0, h1, h2]

/-- An index of the result array is in point `t`'s block iff each coordinate is in the block's range on its axis. -/
theorem mem_blk (t : Fin cfg0.N) (i : S16x512x10.Idx) :
    i ∈ ((cfg0.win 3).blk t).view.set ↔ ∀ a : Fin 3, win0_3.index t a * S1x256x10.size a ≤ (i a).val ∧ (i a).val < win0_3.index t a * S1x256x10.size a + S1x256x10.size a := by
  show i ∈ ((View.whole main_v1).slice (win0_3.rect t)).set ↔ _
  rw [View.set_slice_whole, Rect.mem_set_unit]
  exact Iff.rfl

/-- The blocks tile the result array: entry `(b, l, p)` is in the block of the point `(b, l / 256)`. -/
theorem cover (i : S16x512x10.Idx) : ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 10 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 10 ≤ (i 2).val ∧ (i 2).val < win0_3.index t (2 : Fin 3) * 10 + 10; omega

/-- The row of weights the region finds is the 10 × 1 argument re-laid as 1 × 10. -/
theorem V_weights (c : Dev nD) :
    (V m c main_v0 : S1x10.Idx → Elt Ideal .f32) = shapeCast S1x10 (m ((c : Thread nD τ).loc main_arg2)) shapeCasts_S10x1_S1x10 := by
  dsimp only [V, hostOps0]
  after_results
  rfl

/-- Entry `p` of the row of weights is entry `p` of the column. -/
theorem weights_apply (A2 : S10x1.Idx → Elt Ideal .f32) (p : Fin 10) :
    (shapeCast S1x10 A2 shapeCasts_S10x1_S1x10 : S1x10.Idx → Elt Ideal .f32) (ix2 (0 : Fin 1) p) = A2 (ix2 p (0 : Fin 1)) :=
  shapeCast_apply A2 shapeCasts_S10x1_S1x10 _ _ (by
    rw [Shape.rowMajor_val_two, Shape.rowMajor_val_two]
    show 0 * 10 + p.val = p.val * 1 + 0
    omega)

/-- The result array after the run is `whole` of the three argument arrays. -/
theorem final (c : Dev nD) :
    (dats m 0 c).arrAt 3 cfg0.N
      = whole (m ((c : Thread nD τ).loc main_arg0)) (m ((c : Thread nD τ).loc main_arg1)) (m ((c : Thread nD τ).loc main_arg2)) := by
  rw [(dats m 0 c).arrAt_eq_of_cover 3 (blockwise (V m c main_arg0) (V m c main_arg1) (V m c main_v0))
    (fun t _ => flushed_eq m c t) cover, V_main_arg0, V_main_arg1, V_weights]
  funext i
  unfold blockwise whole
  exact congrArg (Cert.Spec.outCollapsed _ _) (weights_apply _ (i 2))

/-- The kernel's run: the result array ends at `whole` of the arguments, which end unchanged. -/
theorem run : θ_run defs (onTc (τ := τ) (main (F := Ideal))) ⟨m, fun _ => 0, ρ⟩ fun r => ∀ c : Dev nD,
      r.2.mem ((c : Thread nD τ).loc main_v1)
        = whole (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  Multi-perspective cosine matching of a sentence against its attentive mean: the kernel against the reference,
  over the extended reals.

  For each batch `b`, row `l` of the first sentence `s1 = sent1[b, l, ·]` and perspective weight `k = kernel[p, 0]`,
  with `s2 = sent2[b]`: the cosines `cos m = <s1, s2 m> / max (|s1| · |s2 m|, ε)`, the attentive mean
  `mean = (Σ_m cos m · s2 m) / (Σ_m cos m + ε)`, and the result entry, the cosine of `k · s1` against `k · mean` with the
  product of the lengths floored at `ε` (Proof/Spec.lean). The reference scales both vectors by `k` first
  (`perspective`); the kernel pulls `k²` out of the inner product and out of the product of the lengths (`collapsed`).

  Up to the attentive mean the two programs are the same sums in the same order, read entry by entry: the
  reference's stages in Proof/RefValue.lean, the kernel's two matrix products and row reductions in
  Proof/KernelMean.lean and Proof/KernelBlock.lean, its 32 blocks of 256 rows put together in Proof/KernelArray.lean.
  The last stage is where they differ, and there the two forms are equal at every FINITE weight, for arbitrary extended
  reals in `s1` and `mean` (the attentive mean is `±∞` where the shifted sum of cosines is zero): a product of four
  factors regroups freely, the finite nonnegative `k²` distributes over any sum of extended reals, and
  `√(X · k²) = √X · |k|` for every extended real `X` (Proof/Spec.lean, `perspective_eq_collapsed`). That the weights are
  finite is the one thing taken from the precondition (Proof/Finite.lean). The three frames are the generated frame
  runs; the ideal pass rewrote nothing, so the kernel's idealization is its own text read over the extended reals.
-/
import proofs.«156836_j47923245089245_1_alg».proof.Defs
import proofs.«156836_j47923245089245_1_alg».proof.Proof.Gen.Kernel
import proofs.«156836_j47923245089245_1_alg».proof.Proof.Gen.Kernel.Frame
import proofs.«156836_j47923245089245_1_alg».proof.Proof.Gen.KernelIdeal
import proofs.«156836_j47923245089245_1_alg».proof.Proof.Gen.KernelIdeal.Frame
import proofs.«156836_j47923245089245_1_alg».proof.Proof.Gen.ReferenceIdeal
import proofs.«156836_j47923245089245_1_alg».proof.Proof.Gen.Pre_finite_inputs
import proofs.«156836_j47923245089245_1_alg».proof.Proof.Gen.KernelIdeal.Value
import proofs.«156836_j47923245089245_1_alg».proof.Proof.Gen.ReferenceIdeal.Run
import proofs.«156836_j47923245089245_1_alg».proof.Proof.Gen.ReferenceIdeal.Read
import proofs.«156836_j47923245089245_1_alg».proof.Proof.Spec
import proofs.«156836_j47923245089245_1_alg».proof.Proof.RefValue
import proofs.«156836_j47923245089245_1_alg».proof.Proof.Finite
import proofs.«156836_j47923245089245_1_alg».proof.Proof.KernelArray
import Idealize.ShloMosaic.Adequacy
import Idealize.ShloMosaic.Init

noncomputable section

namespace Cert.Proof

open Idealize.ShloMosaic Idealize.SL.Sem Idealize.ShloMosaic.ValueIdx

/-- The kernel as printed runs to the end with its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the three arguments the kernel's result array and the reference's are equal entry by
    entry: the kernel's is the collapsed form of each entry, the reference's the perspective form, and the two agree
    because the weight of the entry's perspective is a real number under the precondition. -/
theorem algebraic : Cert.algebraic_KernelIdeal_ReferenceIdeal := by
  intro m ρ m' ρ' hpre hagree
  refine ⟨fun c => Cert.KernelIdeal.Whole.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2]
  funext i
  obtain ⟨b, l, p, rfl⟩ : ∃ (b : Fin 16) (l : Fin 512) (p : Fin 10), i = ix3 b l p := ⟨i 0, i 1, i 2, eq_ix3 i⟩
  obtain ⟨k, hk⟩ := Cert.Finite.weight_real m hpre c p
  refine (Cert.ReferenceIdeal.RefValue.ref_at _ _ _ b l p).trans ?_
  show Cert.Spec.outPerspective _ _ (m ((c.tc : Thread Cert.KernelIdeal.nD Cert.KernelIdeal.τ).loc Cert.KernelIdeal.main_arg2) (ix2 p (0 : Fin 1)))
    = Cert.Spec.outCollapsed _ _ (m ((c.tc : Thread Cert.KernelIdeal.nD Cert.KernelIdeal.τ).loc Cert.KernelIdeal.main_arg2) (ix2 p (0 : Fin 1)))
  rw [hk]
  exact Cert.Spec.outPerspective_eq_outCollapsed _ _ k

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
